-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x50000x128 : Shape := ⟨3, ![2, 50000, 128]⟩
abbrev S2x800000 : Shape := ⟨2, ![2, 800000]⟩
abbrev S128x512 : Shape := ⟨2, ![128, 512]⟩
abbrev S512 : Shape := ⟨1, ![512]⟩
abbrev S512x128 : Shape := ⟨2, ![512, 128]⟩
abbrev S128 : Shape := ⟨1, ![128]⟩
abbrev S_ : Shape := ⟨0, ![]⟩

class Facts : Prop where
  bcast_S_S2x50000x128 : S_.BroadcastsInDim S2x50000x128 (![] : Fin 0 → Fin S2x50000x128.rank)
  reducesTo_S2x50000x128_S_d0_1_2 : S2x50000x128.ReducesTo [0, 1, 2] S_
  h_S_ : 0 < S_.numel
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S512x128 .f32) (main_arg9 : FVec F S128 .f32) (main_v33 : IVec S_ 1) : IVec S_ 1 :=
  let main_v34 : FVec F S512x128 .f32 := Host.absf main_arg8
  let main_cst_12 : FVec F S_ .f32 := constant S_ .f32 0x7F800000#32
  let main_v35 : FVec F S512x128 .f32 := broadcastInDim S512x128 ![] bcast_S_S512x128 main_cst_12
  let main_v36 : IVec S512x128 1 := cmpf .olt main_v34 main_v35
  let main_c_13 : IVec S_ 1 := constantI S_ 1 1#1
  let main_v37 : IVec S_ 1 := (fun x v => Host.reduce IntOp.andi x v reducesTo_S512x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128 .f32) (main_arg6 : FVec F S128x512 .f32) (main_arg7 : FVec F S512 .f32) (main_arg8 : FVec F S512x128 .f32) (main_arg9 : FVec F S128 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x512 .f32 := Host.absf main_arg6
  let main_cst_8 : FVec F S_ .f32 := constant S_ .f32 0x7F800000#32
  let main_v25 : FVec F S128x512 .f32 := broadcastInDim S128x512 ![] bcast_S_S128x512 main_cst_8
  let main_v26 : IVec S128x512 1 := cmpf .olt main_v24 main_v25
  let main_c_9 : IVec S_ 1 := constantI S_ 1 1#1
  let main_v27 : IVec S_ 1 := (fun x v => Host.reduce IntOp.andi x v reducesTo_S128x512_S_d0_1 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg8 main_arg9 main_v33

def fn {F : FTy → Type} [FloatOps F] (main_arg0 : FVec F S2x50000x128 .f32) (main_arg1 : IVec S2x800000 32) (main_arg2 : FVec F S128x512 .f32) (main_arg3 : FVec F S512 .f32) (main_arg4 : FVec F S512x128 .f32) (main_arg5 : FVec F S128 .f32) (main_arg6 : FVec F S128x512 .f32) (main_arg7 : FVec F S512 .f32) (main_arg8 : FVec F S512x128 .f32) (main_arg9 : FVec F S128 .f32) : IVec S_ 1 :=
  let main_v0 : FVec F S2x50000x128 .f32 := Host.absf main_arg0
  let main_cst : FVec F S_ .f32 := constant S_ .f32 0x7F800000#32
  let main_v1 : FVec F S2x50000x128 .f32 := broadcastInDim S2x50000x128 ![] bcast_S_S2x50000x128 main_cst
  let main_v2 : IVec S2x50000x128 1 := cmpf .olt main_v0 main_v1
  let main_c : IVec S_ 1 := constantI S_ 1 1#1
  let main_v3 : IVec S_ 1 := (fun x v => Host.reduce IntOp.andi x v reducesTo_S2x50000x128_S_d0_1_2 h_S_) main_v2 main_c
  let main_v4 : FVec F S128x512 .f32 := Host.absf main_arg2
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x128 .f32 := Host.absf main_arg4
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg5 main_arg6 main_arg7 main_arg8 main_arg9 main_v13 main_v16
-- ==== Kernel.lean ====
abbrev S2x50000x128 : Shape := ⟨3, ![2, 50000, 128]⟩
abbrev S2x800000 : Shape := ⟨2, ![2, 800000]⟩
abbrev S128x512 : Shape := ⟨2, ![128, 512]⟩
abbrev S512 : Shape := ⟨1, ![512]⟩
abbrev S512x128 : Shape := ⟨2, ![512, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S2x800000x128 : Shape := ⟨3, ![2, 800000, 128]⟩
abbrev S100000x128 : Shape := ⟨2, ![100000, 128]⟩
abbrev S1x512 : Shape := ⟨2, ![1, 512]⟩
abbrev S1x128 : Shape := ⟨2, ![1, 128]⟩
abbrev S2000x128 : Shape := ⟨2, ![2000, 128]⟩
abbrev S2000x512 : Shape := ⟨2, ![2000, 512]⟩

abbrev nBuf : Space → Nat
  | .hbm => 70
  | .vmem => 16
  | .smem => 0
  | _ => 0

abbrev bufTy : (tb : Table) → Fin (tcTables nBuf tb) → BufTy
  | .hbm, ⟨0, _⟩ => ⟨S2x50000x128, .f32⟩
  | .hbm, ⟨1, _⟩ => ⟨S2x800000, .i32⟩
  | .hbm, ⟨2, _⟩ => ⟨S128x512, .f32⟩
  | .hbm, ⟨3, _⟩ => ⟨S512, .f32⟩
  | .hbm, ⟨4, _⟩ => ⟨S512x128, .f32⟩
  | .hbm, ⟨5, _⟩ => ⟨S128, .f32⟩
  | .hbm, ⟨6, _⟩ => ⟨S128x512, .f32⟩
  | .hbm, ⟨7, _⟩ => ⟨S512, .f32⟩
  | .hbm, ⟨8, _⟩ => ⟨S512x128, .f32⟩
  | .hbm, ⟨9, _⟩ => ⟨S128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S2x800000x128, .f32⟩
  | .hbm, ⟨23, _⟩ => ⟨S_, .f32⟩
  | .hbm, ⟨24, _⟩ => ⟨S2x50000x128, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S2x50000x128, .f32⟩
  | .hbm, ⟨34, _⟩ => ⟨S2x50000x128, .f32⟩
  | .hbm, ⟨35, _⟩ => ⟨S100000x128, .f32⟩
  | .hbm, ⟨36, _⟩ => ⟨S128x512, .bf16⟩
  | .hbm, ⟨37, _⟩ => ⟨S512x128, .bf16⟩
  | .hbm, ⟨38, _⟩ => ⟨S1x512, .f32⟩
  | .hbm, ⟨39, _⟩ => ⟨S1x128, .f32⟩
  | .hbm, ⟨40, _⟩ => ⟨S100000x128, .f32⟩
  | .hbm, ⟨41, _⟩ => ⟨S2x50000x128, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S2x800000x128, .f32⟩
  | .hbm, ⟨51, _⟩ => ⟨S_, .f32⟩
  | .hbm, ⟨52, _⟩ => ⟨S2x50000x128, .f32⟩
  | .hbm, ⟨53, _⟩ => ⟨S_, .i32⟩
  | .hbm, ⟨54, _⟩ => ⟨S800000, .i32⟩
  | .hbm, ⟨55, _⟩ => ⟨S800000, .i1⟩
  | .hbm, ⟨56, _⟩ => ⟨S_, .i32⟩
  | .hbm, ⟨57, _⟩ => ⟨S800000, .i32⟩
  | .hbm, ⟨58, _⟩ => ⟨S800000, .i32⟩
  | .hbm, ⟨59, _⟩ => ⟨S800000, .i32⟩
  | .hbm, ⟨60, _⟩ => ⟨S800000x1, .i32⟩
  | .hbm, ⟨61, _⟩ => ⟨S2x50000x128, .f32⟩
  | .hbm, ⟨62, _⟩ => ⟨S2x50000x128, .f32⟩
  | .hbm, ⟨63, _⟩ => ⟨S100000x128, .f32⟩
  | .hbm, ⟨64, _⟩ => ⟨S128x512, .bf16⟩
  | .hbm, ⟨65, _⟩ => ⟨S512x128, .bf16⟩
  | .hbm, ⟨66, _⟩ => ⟨S1x512, .f32⟩
  | .hbm, ⟨67, _⟩ => ⟨S1x128, .f32⟩
  | .hbm, ⟨68, _⟩ => ⟨S100000x128, .f32⟩
  | .hbm, ⟨69, _⟩ => ⟨S2x50000x128, .f32⟩
  | .local _ .vmem, ⟨0, _⟩ => ⟨S2000x128, .f32⟩
  | .local _ .vmem, ⟨1, _⟩ => ⟨S2000x128, .f32⟩
  | .local _ .vmem, ⟨2, _⟩ => ⟨S128x512, .bf16⟩
  | .local _ .vmem, ⟨3, _⟩ => ⟨S1x512, .f32⟩
  | .local _ .vmem, ⟨4, _⟩ => ⟨S512x128, .bf16⟩
  | .local _ .vmem, ⟨5, _⟩ => ⟨S1x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S128x512, .bf16⟩
  | .local _ .vmem, ⟨11, _⟩ => ⟨S1x512, .f32⟩
  | .local _ .vmem, ⟨12, _⟩ => ⟨S512x128, .bf16⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | _, _ => ⟨S2x50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_c_1 : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_3 : Ref sig .tc := ⟨.hbm, 42, rfl⟩
abbrev main_v27 : Ref sig .tc := ⟨.hbm, 43, rfl⟩
abbrev main_v28 : Ref sig .tc := ⟨.hbm, 44, rfl⟩
abbrev main_c_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_c_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S2x50000x128 : S_.BroadcastsInDim S2x50000x128 (![] : Fin 0 → Fin S2x50000x128.rank)
  shapeCasts_S2x50000x128_S100000x128 : S2x50000x128.ShapeCasts S100000x128
  bitsLt_bf16_f32 : FTy.bits .bf16 < FTy.bits .f32
  shapeCasts_S512_S1x512 : S512.ShapeCasts S1x512
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S100000x128_S2x50000x128 : S100000x128.ShapeCasts S2x50000x128
  gather_S2x50000x128_S800000x1_S2x800000x128_02_1_n_n_1_1_21128_wf : GatherDims.WF S2x50000x128 S800000x1 S2x800000x128 [0, 2] [1] [] [1] [] 1 ![2, 1, 128]
  scatter_S2x50000x128_S800000x1_S2x800000x128_02_1_1_1_wf : ScatterDims.WF S2x50000x128 S800000x1 S2x800000x128 [0, 2] [1] [1] 1
  dot_S2000x128_S128x512_S2000x512_1_0_0_1_n_n_wf : DotDims.WF S2000x128 S128x512 S2000x512 [1] [0] [0] [1] [] []
  dot_S2000x512_S512x128_S2000x128_1_0_0_1_n_n_wf : DotDims.WF S2000x512 S512x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .bf16 = 32 ∨ (Rect.block (s := S128x512) S128x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S512x128.size a
  hwx0_3 : ∀ i : grid0.Coords, EltTy.bits .bf16 = 32 ∨ (Rect.block (s := S512x128) S512x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x512.size a ≤ S128x512.size a
  hwx1_1 : ∀ i : grid1.Coords, EltTy.bits .bf16 = 32 ∨ (Rect.block (s := S128x512) S128x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x128.size a ≤ S512x128.size a
  hwx1_3 : ∀ i : grid1.Coords, EltTy.bits .bf16 = 32 ∨ (Rect.block (s := S512x128) S512x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)

variable [Facts₀]

def gather_S2x50000x128_S800000x1_S2x800000x128_02_1_n_n_1_1_21128 : GatherDims S2x50000x128 S800000x1 S2x800000x128 where
  offsetDims := [0, 2]
  collapsedSliceDims := [1]
  operandBatchingDims := []
  startIndicesBatchingDims := []
  startIndexMap := [1]
  indexVectorDim := 1
  sliceSizes := ![2, 1, 128]
  wf := gather_S2x50000x128_S800000x1_S2x800000x128_02_1_n_n_1_1_21128_wf
def scatter_S2x50000x128_S800000x1_S2x800000x128_02_1_1_1 : ScatterDims S2x50000x128 S800000x1 S2x800000x128 where
  updateWindowDims := [0, 2]
  insertedWindowDims := [1]
  scatterDimsToOperandDims := [1]
  indexVectorDim := 1
  wf := scatter_S2x50000x128_S800000x1_S2x800000x128_02_1_1_1_wf
def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf

abbrev win0_0 : Pipeline.Window sig grid0 :=
  Pipeline.Window.ofSpec (Memref.whole main_v20) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S512x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S128x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S512x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S2x50000x128 : Shape := ⟨3, ![2, 50000, 128]⟩
abbrev S2x800000 : Shape := ⟨2, ![2, 800000]⟩
abbrev S128x512 : Shape := ⟨2, ![128, 512]⟩
abbrev S512 : Shape := ⟨1, ![512]⟩
abbrev S512x128 : Shape := ⟨2, ![512, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S2x800000x128 : Shape := ⟨3, ![2, 800000, 128]⟩
abbrev S2x50000x512 : Shape := ⟨3, ![2, 50000, 512]⟩
abbrev S1x1x512 : Shape := ⟨3, ![1, 1, 512]⟩
abbrev S1x1x128 : Shape := ⟨3, ![1, 1, 128]⟩

abbrev nBuf : Space → Nat
  | .hbm => 78
  | .vmem => 0
  | .smem => 0
  | _ => 0

abbrev bufTy : (tb : Table) → Fin (tcTables nBuf tb) → BufTy
  | .hbm, ⟨0, _⟩ => ⟨S2x50000x128, .f32⟩
  | .hbm, ⟨1, _⟩ => ⟨S2x800000, .i32⟩
  | .hbm, ⟨2, _⟩ => ⟨S128x512, .f32⟩
  | .hbm, ⟨3, _⟩ => ⟨S512, .f32⟩
  | .hbm, ⟨4, _⟩ => ⟨S512x128, .f32⟩
  | .hbm, ⟨5, _⟩ => ⟨S128, .f32⟩
  | .hbm, ⟨6, _⟩ => ⟨S128x512, .f32⟩
  | .hbm, ⟨7, _⟩ => ⟨S512, .f32⟩
  | .hbm, ⟨8, _⟩ => ⟨S512x128, .f32⟩
  | .hbm, ⟨9, _⟩ => ⟨S128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S2x50000x128, .f32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S2x800000x128, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S2x50000x128, .f32⟩
  | .hbm, ⟨34, _⟩ => ⟨S2x50000x128, .f32⟩
  | .hbm, ⟨35, _⟩ => ⟨S2x50000x512, .f32⟩
  | .hbm, ⟨36, _⟩ => ⟨S1x1x512, .f32⟩
  | .hbm, ⟨37, _⟩ => ⟨S2x50000x512, .f32⟩
  | .hbm, ⟨38, _⟩ => ⟨S2x50000x512, .f32⟩
  | .hbm, ⟨39, _⟩ => ⟨S_, .f32⟩
  | .hbm, ⟨40, _⟩ => ⟨S2x50000x512, .f32⟩
  | .hbm, ⟨41, _⟩ => ⟨S2x50000x512, .f32⟩
  | .hbm, ⟨42, _⟩ => ⟨S2x50000x128, .f32⟩
  | .hbm, ⟨43, _⟩ => ⟨S1x1x128, .f32⟩
  | .hbm, ⟨44, _⟩ => ⟨S2x50000x128, .f32⟩
  | .hbm, ⟨45, _⟩ => ⟨S2x50000x128, .f32⟩
  | .hbm, ⟨46, _⟩ => ⟨S_, .f32⟩
  | .hbm, ⟨47, _⟩ => ⟨S2x50000x128, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S2x800000x128, .f32⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S2x50000x128, .f32⟩
  | .hbm, ⟨66, _⟩ => ⟨S2x50000x128, .f32⟩
  | .hbm, ⟨67, _⟩ => ⟨S2x50000x512, .f32⟩
  | .hbm, ⟨68, _⟩ => ⟨S1x1x512, .f32⟩
  | .hbm, ⟨69, _⟩ => ⟨S2x50000x512, .f32⟩
  | .hbm, ⟨70, _⟩ => ⟨S2x50000x512, .f32⟩
  | .hbm, ⟨71, _⟩ => ⟨S_, .f32⟩
  | .hbm, ⟨72, _⟩ => ⟨S2x50000x512, .f32⟩
  | .hbm, ⟨73, _⟩ => ⟨S2x50000x512, .f32⟩
  | .hbm, ⟨74, _⟩ => ⟨S2x50000x128, .f32⟩
  | .hbm, ⟨75, _⟩ => ⟨S1x1x128, .f32⟩
  | .hbm, ⟨76, _⟩ => ⟨S2x50000x128, .f32⟩
  | .hbm, ⟨77, _⟩ => ⟨S2x50000x128, .f32⟩
  | _, _ => ⟨S2x50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_1 : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call0_cst : Ref sig .tc := ⟨.hbm, 39, rfl⟩
abbrev main_call0_v0 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_6 : Ref sig .tc := ⟨.hbm, 57, rfl⟩
abbrev main_v37 : Ref sig .tc := ⟨.hbm, 58, rfl⟩
abbrev main_v38 : Ref sig .tc := ⟨.hbm, 59, rfl⟩
abbrev main_c_7 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S2x50000x128 : S_.BroadcastsInDim S2x50000x128 (![] : Fin 0 → Fin S2x50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S512_S1x1x512_2 : S512.BroadcastsInDim S1x1x512 (![2] : Fin 1 → Fin S1x1x512.rank)
  bcast_S1x1x512_S2x50000x512_0_1_2 : S1x1x512.BroadcastsInDim S2x50000x512 (![0, 1, 2] : Fin 3 → Fin S2x50000x512.rank)
  bcast_S_S2x50000x512 : S_.BroadcastsInDim S2x50000x512 (![] : Fin 0 → Fin S2x50000x512.rank)
  bcast_S128_S1x1x128_2 : S128.BroadcastsInDim S1x1x128 (![2] : Fin 1 → Fin S1x1x128.rank)
  bcast_S1x1x128_S2x50000x128_0_1_2 : S1x1x128.BroadcastsInDim S2x50000x128 (![0, 1, 2] : Fin 3 → Fin S2x50000x128.rank)
  gather_S2x50000x128_S800000x1_S2x800000x128_02_1_n_n_1_1_21128_wf : GatherDims.WF S2x50000x128 S800000x1 S2x800000x128 [0, 2] [1] [] [1] [] 1 ![2, 1, 128]
  scatter_S2x50000x128_S800000x1_S2x800000x128_02_1_1_1_wf : ScatterDims.WF S2x50000x128 S800000x1 S2x800000x128 [0, 2] [1] [1] 1
  dot_S2x50000x128_S128x512_S2x50000x512_2_0_01_1_n_n_wf : DotDims.WF S2x50000x128 S128x512 S2x50000x512 [2] [0] [0, 1] [1] [] []
  dot_S2x50000x512_S512x128_S2x50000x128_2_0_01_1_n_n_wf : DotDims.WF S2x50000x512 S512x128 S2x50000x128 [2] [0] [0, 1] [1] [] []

variable [Facts₀]

def gather_S2x50000x128_S800000x1_S2x800000x128_02_1_n_n_1_1_21128 : GatherDims S2x50000x128 S800000x1 S2x800000x128 where
  offsetDims := [0, 2]
  collapsedSliceDims := [1]
  operandBatchingDims := []
  startIndicesBatchingDims := []
  startIndexMap := [1]
  indexVectorDim := 1
  sliceSizes := ![2, 1, 128]
  wf := gather_S2x50000x128_S800000x1_S2x800000x128_02_1_n_n_1_1_21128_wf
def scatter_S2x50000x128_S800000x1_S2x800000x128_02_1_1_1 : ScatterDims S2x50000x128 S800000x1 S2x800000x128 where
  updateWindowDims := [0, 2]
  insertedWindowDims := [1]
  scatterDimsToOperandDims := [1]
  indexVectorDim := 1
  wf := scatter_S2x50000x128_S800000x1_S2x800000x128_02_1_1_1_wf
def dot_S2x50000x128_S128x512_S2x50000x512_2_0_01_1_n_n : DotDims S2x50000x128 S128x512 S2x50000x512 where
  lhsContracting := [2]
  rhsContracting := [0]
  lhsNonContracting := [0, 1]
  rhsNonContracting := [1]
  lhsBatch := []
  rhsBatch := []
  wf := dot_S2x50000x128_S128x512_S2x50000x512_2_0_01_1_n_n_wf
def dot_S2x50000x512_S512x128_S2x50000x128_2_0_01_1_n_n : DotDims S2x50000x512 S512x128 S2x50000x128 where
  lhsContracting := [2]
  rhsContracting := [0]
  lhsNonContracting := [0, 1]
  rhsNonContracting := [1]
  lhsBatch := []
  rhsBatch := []
  wf := dot_S2x50000x512_S512x128_S2x50000x128_2_0_01_1_n_n_wf

class Facts : Prop extends Facts₀ where

variable [Facts]
-- ==== Proof.KernelRun.lean ====
/-
  The kernel program's run with its result named.

  The program is five segments: host operations, the first pallas_call's region, host operations, the second region,
  and a last reshape. The generated frame proof runs them over thread states that hold every unscoped buffer at the
  contents a fold through the program gives it (`W0 … W5`), and keeps of the final state only that the arguments are
  unchanged. Here the same launch is read once more for the result buffer as well: after every weakly fair execution
  the result buffer holds what the fold's last stage `W5` gives it, and the arguments are as launched. What `W5`
  holds there is computed in the module that reads the fold.
-/
import proofs.«170586_j85933705658978_1_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, with the result buffer at the fold's last
    stage and the argument arrays as launched. -/
theorem run_result : θ_run defs (onTc (τ := τ) (main (F := F))) ⟨m, fun _ => 0, ρ⟩ (fun r => ∀ c : Dev nD,
      r.2.mem ((c.tc : Thread nD τ).loc main_v49) = W5 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v49 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c)⟩)

end Cert.KernelIdeal.Gen

end
-- ==== Proof.LibPlainMatmul.lean ====
/-
  A plain two-dimensional matrix product into a zero accumulator, read at a row and a column.

  For dimension numbers that contract the left operand's columns with the right operand's rows, with no batch axis,
  entry `(r, c)` of the product of an `[M, K]` matrix and a `[K, N]` matrix accumulated into zero is the sum over
  `k` of `lhs (r, k) * rhs (k, c)` on the extended reals: the accumulator contributes `0`, and the contraction
  index, a rank-one index, is re-indexed by its one coordinate. Stated for any extents and float formats, with the
  dimension numbers given by their six lists, so that any printed record with these lists unifies.
-/
import Idealize.ShloMosaic.PureOps.Ideal.Laws
import Idealize.ShloMosaic.Lib.ValueIdx

namespace Cert.Lib.PlainMatmul

open Idealize.ShloMosaic Idealize.ShloMosaic.ValueIdx

set_option backward.isDefEq.respectTransparency.types false in
/-- The product of `[M, K]` by `[K, N]` into the zero splat, at `(r, c)`: `∑ k, lhs (r, k) * rhs (k, c)`. -/
theorem matmul_zero_apply {M K N : ℕ} {φ₁ φ₂ : FTy}
    (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (c : Fin N) :
    FloatOps.matmul d prec lhs rhs (constant ⟨2, ![M, N]⟩ .f32 0x00000000#32) (ix2 r c)
      = ∑ k : Fin K, lhs (ix2 r k) * rhs (ix2 k c) := by
  obtain ⟨lc, rc, ln, rn, lb, rb, wf⟩ := d
  dsimp only at hlc hrc hln hrn hlb hrb
  subst hlc hrc hln hrn hlb hrb
  rw [Ideal.matmul_constant_zero_apply]
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 r c)
      ((contrEquiv1 (⟨[1], [0], [0], [1], [], [], wf⟩ : DotDims ⟨2, ![M, K]⟩ ⟨2, ![K, N]⟩ ⟨2, ![M, N]⟩) K rfl rfl).symm k) = ix2 r k :=
    funext fun a => Fin.ext (by
      match a with
      | ⟨0, h0⟩ =>
        unfold DotDims.lhsIdx
        rw [dif_neg (show ¬ (⟨0, h0⟩ : Fin 2) ∈ ([] : List (Fin 2)) from List.not_mem_nil),
          dif_pos (show (⟨0, h0⟩ : Fin 2) ∈ [(0 : Fin 2)] from List.mem_singleton.mpr rfl)]
        rfl
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 r c)
      ((contrEquiv1 (⟨[1], [0], [0], [1], [], [], wf⟩ : DotDims ⟨2, ![M, K]⟩ ⟨2, ![K, N]⟩ ⟨2, ![M, N]⟩) K rfl rfl).symm k) = ix2 k c :=
    funext fun a => Fin.ext (by
      match a with
      | ⟨0, _⟩ => exact (DotDims.rhsIdx_val_of_single _ rfl _ _).trans hk
      | ⟨1, h1⟩ =>
        unfold DotDims.rhsIdx
        rw [dif_neg (show ¬ (⟨1, h1⟩ : Fin 2) ∈ ([] : List (Fin 2)) from List.not_mem_nil),
          dif_pos (show (⟨1, h1⟩ : Fin 2) ∈ [(1 : Fin 2)] from List.mem_singleton.mpr rfl)]
        rfl)
  rw [el, er]

end Cert.Lib.PlainMatmul
-- ==== Proof.LibMergeLeadingAxes.lean ====
/-
  Merging the two leading axes of a rank-3 array into one, and splitting them again, read at coordinates.

  In row-major order entry `(r, t, k)` of an `[a, b, c]` array sits at position `(r * b + t) * c + k`, which is
  where entry `(r * b + t, k)` of an `[n, c]` array sits. So a reshape of `[a, b, c]` to `[n, c]` reads, at row
  `p = r * b + t` and column `k`, the operand at `(r, t, k)`; and the reshape back reads, at `(r, t, k)`, the operand
  at row `p`, column `k`. Stated for any element type and any extents, with indices written by their coordinates;
  the merged extent `n` is a parameter so that a printed literal (`512` for `8 * 64`) unifies.
-/
import Idealize.ShloMosaic.Lib.Pipeline.Value
import Idealize.ShloMosaic.Lib.ValueIdx

namespace Idealize.ShloMosaic.MergeLeadingAxes

open Idealize.ShloMosaic Idealize.ShloMosaic.ValueIdx

variable {α : Type}

/-- An `[a, b, c]` array reshaped to `[n, c]` reads, at `(p, k)` with `p = r * b + t`, the operand at `(r, t, k)`. -/
theorem shapeCast_abc_nc_apply {a b c n : ℕ} (x : (⟨3, ![a, b, c]⟩ : Shape).Idx → α)
    (h : (⟨3, ![a, b, c]⟩ : Shape).ShapeCasts ⟨2, ![n, c]⟩) (r : Fin a) (t : Fin b) (k : Fin c) (p : Fin n)
    (hp : p.val = r.val * b + t.val) :
    shapeCast ⟨2, ![n, c]⟩ x h (ix2 p k) = x (ix3 r t k) :=
  shapeCast_apply x h _ _ (by
    rw [Shape.rowMajor_val_three, Shape.rowMajor_val_two]
    show (r.val * b + t.val) * c + k.val = p.val * c + k.val
    rw [hp])

/-- An `[n, c]` array reshaped to `[a, b, c]` reads, at `(r, t, k)`, the operand at `(p, k)` with `p = r * b + t`. -/
theorem shapeCast_nc_abc_apply {a b c n : ℕ} (x : (⟨2, ![n, c]⟩ : Shape).Idx → α)
    (h : (⟨2, ![n, c]⟩ : Shape).ShapeCasts ⟨3, ![a, b, c]⟩) (r : Fin a) (t : Fin b) (k : Fin c) (p : Fin n)
    (hp : p.val = r.val * b + t.val) :
    shapeCast ⟨3, ![a, b, c]⟩ x h (ix3 r t k) = x (ix2 p k) :=
  shapeCast_apply x h _ _ (by
    rw [Shape.rowMajor_val_three, Shape.rowMajor_val_two]
    show p.val * c + k.val = (r.val * b + t.val) * c + k.val
    rw [hp])

end Idealize.ShloMosaic.MergeLeadingAxes
-- ==== Proof.Spec.lean ====
/-
  One graph-isomorphism layer's dense part, as a function on the extended reals.

  A node's feature row `h` (128 numbers) goes through a two-layer perceptron: hidden unit `j` is
  `max (∑ k, h k * W1 k j + b1 j) 0`, and output feature `q` is `∑ j, hidden j * W2 j q + b2 q`. The kernel applies it
  to the rows of a flattened `[100000, 128]` array, with the biases laid out as one-row matrices; the reference applies
  it to the rows of the `[2, 50000, 128]` array (node `n` of batch entry `b` is row `b * 50000 + n` of the
  flattened array, in row-major order). Both are stated here index by index over one row function, `mlpRow`, and the
  last lemma says that flattening, applying the flat form and restoring the shape is the three-axis form. The zero
  of the rectifier is kept as the word `0x00000000` read as an extended real: it is the same word on both sides.
-/
import Idealize.ShloMosaic.PureOps.Ideal.Laws
import Idealize.ShloMosaic.Lib.ValueIdx
import Idealize.ShloMosaic.Lib.ValueLayout
import Idealize.ShloMosaic.Lib.Pipeline.Value
import proofs.«170586_j85933705658978_1_alg».proof.Proof.LibMergeLeadingAxes

noncomputable section

namespace Cert.Gin

open Idealize.ShloMosaic Idealize.ShloMosaic.ValueIdx

/-- The perceptron on one feature row: `∑ j, max (∑ k, row k * w1 k j + b1 j) 0 * w2 j q + b2 q`. -/
def mlpRow (row : Fin 128 → EReal) (w1 : Fin 128 → Fin 512 → EReal) (b1 : Fin 512 → EReal)
    (w2 : Fin 512 → Fin 128 → EReal) (b2 : Fin 128 → EReal) (q : Fin 128) : EReal :=
  (∑ j : Fin 512, max ((∑ k : Fin 128, row k * w1 k j) + b1 j) (Ideal.ofBits .f32 0x00000000#32) * w2 j q) + b2 q

/-- The perceptron on every node of a `[2, 50000, 128]` feature array. -/
def mlp3 (h : (⟨3, ![2, 50000, 128]⟩ : Shape).Idx → EReal) (w1 : (⟨2, ![128, 512]⟩ : Shape).Idx → EReal)
    (b1 : (⟨1, ![512]⟩ : Shape).Idx → EReal) (w2 : (⟨2, ![512, 128]⟩ : Shape).Idx → EReal)
    (b2 : (⟨1, ![128]⟩ : Shape).Idx → EReal) : (⟨3, ![2, 50000, 128]⟩ : Shape).Idx → EReal :=
  fun i => mlpRow (fun k => h (ix3 (i 0) (i 1) k)) (fun k j => w1 (ix2 k j)) (fun j => b1 (ix1 j))
    (fun j q => w2 (ix2 j q)) (fun q => b2 (ix1 q)) (i 2)

/-- The perceptron on every row of a flattened `[100000, 128]` array, the biases given as one-row matrices. -/
def mlp2 (h : (⟨2, ![100000, 128]⟩ : Shape).Idx → EReal) (w1 : (⟨2, ![128, 512]⟩ : Shape).Idx → EReal)
    (b1 : (⟨2, ![1, 512]⟩ : Shape).Idx → EReal) (w2 : (⟨2, ![512, 128]⟩ : Shape).Idx → EReal)
    (b2 : (⟨2, ![1, 128]⟩ : Shape).Idx → EReal) : (⟨2, ![100000, 128]⟩ : Shape).Idx → EReal :=
  fun i => mlpRow (fun k => h (ix2 (i 0) k)) (fun k j => w1 (ix2 k j)) (fun j => b1 (ix2 (0 : Fin 1) j))
    (fun j q => w2 (ix2 j q)) (fun q => b2 (ix2 (0 : Fin 1) q)) (i 1)

theorem mlp3_apply (h : (⟨3, ![2, 50000, 128]⟩ : Shape).Idx → EReal) (w1 : (⟨2, ![128, 512]⟩ : Shape).Idx → EReal)
    (b1 : (⟨1, ![512]⟩ : Shape).Idx → EReal) (w2 : (⟨2, ![512, 128]⟩ : Shape).Idx → EReal)
    (b2 : (⟨1, ![128]⟩ : Shape).Idx → EReal) (b : Fin 2) (n : Fin 50000) (q : Fin 128) :
    mlp3 h w1 b1 w2 b2 (ix3 b n q)
      = mlpRow (fun k => h (ix3 b n k)) (fun k j => w1 (ix2 k j)) (fun j => b1 (ix1 j))
          (fun j q => w2 (ix2 j q)) (fun q => b2 (ix1 q)) q := rfl

theorem mlp2_apply (h : (⟨2, ![100000, 128]⟩ : Shape).Idx → EReal) (w1 : (⟨2, ![128, 512]⟩ : Shape).Idx → EReal)
    (b1 : (⟨2, ![1, 512]⟩ : Shape).Idx → EReal) (w2 : (⟨2, ![512, 128]⟩ : Shape).Idx → EReal)
    (b2 : (⟨2, ![1, 128]⟩ : Shape).Idx → EReal) (p : Fin 100000) (q : Fin 128) :
    mlp2 h w1 b1 w2 b2 (ix2 p q)
      = mlpRow (fun k => h (ix2 p k)) (fun k j => w1 (ix2 k j)) (fun j => b1 (ix2 (0 : Fin 1) j))
          (fun j q => w2 (ix2 j q)) (fun q => b2 (ix2 (0 : Fin 1) q)) q := rfl

/-- Flatten the two leading axes, apply the flat form with the biases as one-row matrices, restore the three axes:
    the three-axis form. Row `b * 50000 + n` of the flattened array is node `n` of batch entry `b`. -/
theorem unflatten_mlp2 (h : (⟨3, ![2, 50000, 128]⟩ : Shape).Idx → EReal) (w1 : (⟨2, ![128, 512]⟩ : Shape).Idx → EReal)
    (b1 : (⟨1, ![512]⟩ : Shape).Idx → EReal) (w2 : (⟨2, ![512, 128]⟩ : Shape).Idx → EReal)
    (b2 : (⟨1, ![128]⟩ : Shape).Idx → EReal)
    (hf : (⟨3, ![2, 50000, 128]⟩ : Shape).ShapeCasts ⟨2, ![100000, 128]⟩)
    (hu : (⟨2, ![100000, 128]⟩ : Shape).ShapeCasts ⟨3, ![2, 50000, 128]⟩)
    (h1 : (⟨1, ![512]⟩ : Shape).ShapeCasts ⟨2, ![1, 512]⟩) (h2 : (⟨1, ![128]⟩ : Shape).ShapeCasts ⟨2, ![1, 128]⟩) :
    shapeCast ⟨3, ![2, 50000, 128]⟩
        (mlp2 (shapeCast ⟨2, ![100000, 128]⟩ h hf) w1 (shapeCast ⟨2, ![1, 512]⟩ b1 h1) w2 (shapeCast ⟨2, ![1, 128]⟩ b2 h2)) hu
      = mlp3 h w1 b1 w2 b2 := by
  funext i
  obtain ⟨b, n, q, rfl⟩ : ∃ (b : Fin 2) (n : Fin 50000) (q : Fin 128), i = ix3 b n q := ⟨i 0, i 1, i 2, eq_ix3 i⟩
  have hp : b.val * 50000 + n.val < 100000 := by have := b.isLt; have := n.isLt; omega
  rw [MergeLeadingAxes.shapeCast_nc_abc_apply _ hu b n q ⟨b.val * 50000 + n.val, hp⟩ rfl, mlp2_apply, mlp3_apply]
  have e0 : ∀ k : Fin 128, shapeCast ⟨2, ![100000, 128]⟩ h hf (ix2 ⟨b.val * 50000 + n.val, hp⟩ k) = h (ix3 b n k) :=
    fun k => MergeLeadingAxes.shapeCast_abc_nc_apply h hf b n k ⟨b.val * 50000 + n.val, hp⟩ rfl
  have e1 : ∀ j : Fin 512, shapeCast ⟨2, ![1, 512]⟩ b1 h1 (ix2 (0 : Fin 1) j) = b1 (ix1 j) :=
    fun j => shapeCast_a_1a_apply b1 h1 0 j
  have e2 : ∀ q : Fin 128, shapeCast ⟨2, ![1, 128]⟩ b2 h2 (ix2 (0 : Fin 1) q) = b2 (ix1 q) :=
    fun q => shapeCast_a_1a_apply b2 h2 0 q
  simp only [e0, e1, e2]

end Cert.Gin

end
-- ==== Proof.Payload.lean ====
/-
  The kernel body's stored value, read at a row and a column: the perceptron of that row.

  The body loads a `[2000, 128]` block of rows `x0`, the two weight matrices `x1` `[128, 512]` and `x3`
  `[512, 128]` and the two biases as one-row matrices `x2` `[1, 512]`, `x4` `[1, 128]`, and stores
  `(max (x0 · x1 + x2) 0) · x3 + x4`, each product a matrix product into a zero accumulator and each bias broadcast down
  the rows; the changes of float format on the way into the products are the identity on the extended reals. At
  `(p, q)` this is `mlpRow` of row `p`.
-/
import proofs.«170586_j85933705658978_1_alg».proof.Proof.Gen.KernelIdeal.Skeleton
import proofs.«170586_j85933705658978_1_alg».proof.Proof.LibPlainMatmul
import proofs.«170586_j85933705658978_1_alg».proof.Proof.Spec
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx

/-- The first region's stored value at `(p, q)`. -/
theorem pay0_apply (x0 : Vec Ideal S2000x128 .f32) (x1 : Vec Ideal S128x512 .bf16) (x2 : Vec Ideal S1x512 .f32)
    (x3 : Vec Ideal S512x128 .bf16) (x4 : Vec Ideal S1x128 .f32) (p : Fin 2000) (q : Fin 128) :
    k0_pay1 (F := Ideal) x0 x1 x2 x3 x4 (ix2 p q)
      = Cert.Gin.mlpRow (fun k => x0 (ix2 p k)) (fun k j => x1 (ix2 k j)) (fun j => x2 (ix2 (0 : Fin 1) j))
          (fun j q => x3 (ix2 j q)) (fun q => x4 (ix2 (0 : Fin 1) q)) q := by
  unfold k0_pay1 Cert.Gin.mlpRow
  simp only [shapeCast_self, matmul]
  rw [addf_apply, broadcastTo_1b_ab_apply x4 broadcasts_S1x128_S2000x128 p q,
    Cert.Lib.PlainMatmul.matmul_zero_apply dot_S2000x512_S512x128_S2000x128_1_0_0_1_n_n rfl rfl rfl rfl rfl rfl]
  simp only [truncf_apply, maximumf_apply, addf_apply, broadcast_apply,
    broadcastTo_1b_ab_apply x2 broadcasts_S1x512_S2000x512,
    Cert.Lib.PlainMatmul.matmul_zero_apply dot_S2000x128_S128x512_S2000x512_1_0_0_1_n_n rfl rfl rfl rfl rfl rfl]
  rfl

/-- The second region's stored value at `(p, q)`: the same body. -/
theorem pay1_apply (x0 : Vec Ideal S2000x128 .f32) (x1 : Vec Ideal S128x512 .bf16) (x2 : Vec Ideal S1x512 .f32)
    (x3 : Vec Ideal S512x128 .bf16) (x4 : Vec Ideal S1x128 .f32) (p : Fin 2000) (q : Fin 128) :
    k1_pay1 (F := Ideal) x0 x1 x2 x3 x4 (ix2 p q)
      = Cert.Gin.mlpRow (fun k => x0 (ix2 p k)) (fun k j => x1 (ix2 k j)) (fun j => x2 (ix2 (0 : Fin 1) j))
          (fun j q => x3 (ix2 j q)) (fun q => x4 (ix2 (0 : Fin 1) q)) q :=
  pay0_apply x0 x1 x2 x3 x4 p q

end Cert.KernelIdeal.Body

end
-- ==== Proof.Region0.lean ====
/-
  The first region's output array after the run: the perceptron of every row of its input array.

  The region walks 50 grid points; at point `t` the row window and the output window are block `t` (rows
  `2000 t … 2000 t + 1999`) of their `[100000, 128]` arrays, and the weights' and biases' windows are their whole
  arrays. What point `t` writes back is the body's stored value of those blocks, which at `(p, q)` is the perceptron
  of row `2000 t + p`: block `t` of one function of the arrays as the region finds them. The 50 blocks tile the output
  array (row `r` lies in block `r / 2000`), so after the run the array is that function. Everything is stated at the
  contents `V` the region is entered with, whatever they are.
-/
import proofs.«170586_j85933705658978_1_alg».proof.Proof.Gen.KernelIdeal.Frame
import proofs.«170586_j85933705658978_1_alg».proof.Proof.Payload
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the grid: the row window and the output window sit at block `(t, 0)`, the other four at `(0, 0)`. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem row_lt (t : Fin cfg0.N) (p : Fin 2000) : t.val * 2000 + p.val < 100000 := by
  have hN : cfg0.N = 50 := N_0
  have ht := t.isLt
  have hp := p.isLt
  omega

/-- Row `p` of the row window's block at point `t` is row `2000 t + p` of its array. -/
theorem rows_block (c : Dev nD) (t : Fin cfg0.N) (p : Fin 2000) (k : Fin 128) :
    (iblk0 V c 0 t : Vec Ideal S2000x128 .f32) (ix2 p k) = V c main_v20 (ix2 ⟨t.val * 2000 + p.val, row_lt t p⟩ k) := by
  obtain ⟨e0, e1, -⟩ := index_facts t
  show V c main_v20 (((cfg0.win 0).blk t).view.emb (ix2 p k)) = V c main_v20 _
  refine congrArg _ (funext fun a => Fin.ext ?_)
  match a with
  | ⟨0, _⟩ => show win0_0.index t (0 : Fin 2) * 2000 + 1 * p.val = t.val * 2000 + p.val; rw [e0]; omega
  | ⟨1, _⟩ => show win0_0.index t (1 : Fin 2) * 128 + 1 * k.val = k.val; rw [e1]; omega

/-- The first weight matrix's window is its whole array at every point. -/
theorem w1_block (c : Dev nD) (t : Fin cfg0.N) : (iblk0 V c 1 t : Vec Ideal S128x512 .bf16) = V c main_v21 := by
  obtain ⟨-, -, e0, e1, -⟩ := index_facts t
  funext y
  show V c main_v21 (((cfg0.win 1).blk t).view.emb y) = V c main_v21 y
  refine congrArg _ (funext fun a => Fin.ext ?_)
  match a with
  | ⟨0, _⟩ => show win0_1.index t (0 : Fin 2) * 128 + 1 * (y 0).val = (y 0).val; rw [e0]; omega
  | ⟨1, _⟩ => show win0_1.index t (1 : Fin 2) * 512 + 1 * (y 1).val = (y 1).val; rw [e1]; omega

/-- The first bias row's window is its whole array at every point. -/
theorem b1_block (c : Dev nD) (t : Fin cfg0.N) : (iblk0 V c 2 t : Vec Ideal S1x512 .f32) = V c main_v23 := by
  obtain ⟨-, -, -, -, e0, e1, -⟩ := index_facts t
  funext y
  show V c main_v23 (((cfg0.win 2).blk t).view.emb y) = V c main_v23 y
  refine congrArg _ (funext fun a => Fin.ext ?_)
  match a with
  | ⟨0, _⟩ => show win0_2.index t (0 : Fin 2) * 1 + 1 * (y 0).val = (y 0).val; rw [e0]; omega
  | ⟨1, _⟩ => show win0_2.index t (1 : Fin 2) * 512 + 1 * (y 1).val = (y 1).val; rw [e1]; omega

/-- The second weight matrix's window is its whole array at every point. -/
theorem w2_block (c : Dev nD) (t : Fin cfg0.N) : (iblk0 V c 3 t : Vec Ideal S512x128 .bf16) = V c main_v22 := by
  obtain ⟨-, -, -, -, -, -, e0, e1, -⟩ := index_facts t
  funext y
  show V c main_v22 (((cfg0.win 3).blk t).view.emb y) = V c main_v22 y
  refine congrArg _ (funext fun a => Fin.ext ?_)
  match a with
  | ⟨0, _⟩ => show win0_3.index t (0 : Fin 2) * 512 + 1 * (y 0).val = (y 0).val; rw [e0]; omega
  | ⟨1, _⟩ => show win0_3.index t (1 : Fin 2) * 128 + 1 * (y 1).val = (y 1).val; rw [e1]; omega

/-- The second bias row's window is its whole array at every point. -/
theorem b2_block (c : Dev nD) (t : Fin cfg0.N) : (iblk0 V c 4 t : Vec Ideal S1x128 .f32) = V c main_v24 := by
  obtain ⟨-, -, -, -, -, -, -, -, e0, e1, -⟩ := index_facts t
  funext y
  show V c main_v24 (((cfg0.win 4).blk t).view.emb y) = V c main_v24 y
  refine congrArg _ (funext fun a => Fin.ext ?_)
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-- Entry `(p, q)` of the output window's block at point `t` is entry `(2000 t + p, q)` of its array. -/
theorem out_emb (t : Fin cfg0.N) (p : Fin 2000) (q : Fin 128) :
    (((cfg0.win 5).blk t).view.emb (ix2 p q) : S100000x128.Idx) = ix2 ⟨t.val * 2000 + p.val, row_lt t p⟩ q := by
  obtain ⟨-, -, -, -, -, -, -, -, -, -, e0, e1⟩ := index_facts t
  refine funext fun a => Fin.ext ?_
  match a with
  | ⟨0, _⟩ => show win0_5.index t (0 : Fin 2) * 2000 + 1 * p.val = t.val * 2000 + p.val; rw [e0]; omega
  | ⟨1, _⟩ => show win0_5.index t (1 : Fin 2) * 128 + 1 * q.val = q.val; rw [e1]; omega

/-- What the region computes: the perceptron of every row of the row array, with the weights and biases as found. -/
abbrev result (c : Dev nD) : S100000x128.Idx → EReal :=
  Cert.Gin.mlp2 (V c main_v20) (V c main_v21) (V c main_v23) (V c main_v22) (V c main_v24)

/-- What point `t` writes back is block `t` of `result`. -/
theorem flushed_eq (c : Dev nD) (t : Fin cfg0.N) :
    (dat0 V c).flushed 5 t = ((cfg0.win 5).blk t).view.read (Elt Ideal) (result V c) := by
  show (cfg0.win 5).cut (grid0.coords t) ((dat0 V c).after 5 t) = _
  rw [after0_5]
  unfold out0_5
  rw [View.canon_unit_zero zero_offsets]
  simp only [View.ld_unit_zero (S := S2000x128) zero_offsets, View.ld_unit_zero (S := S128x512) zero_offsets,
    View.ld_unit_zero (S := S1x512) zero_offsets, View.ld_unit_zero (S := S512x128) zero_offsets,
    View.ld_unit_zero (S := S1x128) zero_offsets]
  rw [w1_block V c t, b1_block V c t, w2_block V c t, b2_block V c t]
  funext y
  obtain ⟨p, q, rfl⟩ : ∃ (p : Fin 2000) (q : Fin 128), y = ix2 p q := ⟨y 0, y 1, eq_ix2 y⟩
  show k0_pay1 (F := Ideal) (iblk0 V c 0 t) (V c main_v21) (V c main_v23) (V c main_v22) (V c main_v24) (ix2 p q)
    = result V c (((cfg0.win 5).blk t).view.emb (ix2 p q))
  rw [out_emb t p q]
  refine (Body.pay0_apply (iblk0 V c 0 t) (V c main_v21) (V c main_v23) (V c main_v22) (V c main_v24) p q).trans ?_
  unfold result
  rw [Cert.Gin.mlp2_apply]
  simp only [rows_block V c t p]

/-- An index of the output array is in point `t`'s block iff each coordinate is in the block's range on its axis. -/
theorem mem_blk (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v25).slice (win0_5.rect t)).set ↔ _
  rw [View.set_slice_whole, Rect.mem_set_unit]
  exact Iff.rfl

/-- Every index of the output array is in the block of the point `row / 2000`, which writes back. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 50 := N_0
  have ht : (i 0).val / 2000 < cfg0.N := by rw [hN]; omega
  obtain ⟨-, -, -, -, -, -, -, -, -, -, e0, e1⟩ := index_facts ⟨(i 0).val / 2000, ht⟩
  refine ⟨⟨(i 0).val / 2000, ht⟩, flush0_5 _, ?_⟩
  rw [mem_blk]
  intro a
  match a with
  | ⟨0, _⟩ =>
    show win0_5.index ⟨(i 0).val / 2000, ht⟩ (0 : Fin 2) * 2000 ≤ (i 0).val
      ∧ (i 0).val < win0_5.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win0_5.index ⟨(i 0).val / 2000, ht⟩ (1 : Fin 2) * 128 ≤ (i 1).val
      ∧ (i 1).val < win0_5.index ⟨(i 0).val / 2000, ht⟩ (1 : Fin 2) * 128 + 128
    rw [e1]
    omega

/-- The output array after the run is `result` of the arrays the region was entered with. -/
theorem array_eq (c : Dev nD) : (dat0 V c).arrAt 5 cfg0.N = result V c :=
  (dat0 V c).arrAt_eq_of_cover 5 (result V c) (fun t _ => flushed_eq V c t) cover

end Cert.KernelIdeal.Region0

end
-- ==== Proof.Region1.lean ====
/-
  The second region's output array after the run: the perceptron of every row of its input array.

  The region walks 50 grid points; at point `t` the row window and the output window are block `t` (rows
  `2000 t … 2000 t + 1999`) of their `[100000, 128]` arrays, and the weights' and biases' windows are their whole
  arrays. What point `t` writes back is the body's stored value of those blocks, which at `(p, q)` is the perceptron
  of row `2000 t + p`: block `t` of one function of the arrays as the region finds them. The 50 blocks tile the output
  array (row `r` lies in block `r / 2000`), so after the run the array is that function. Everything is stated at the
  contents `V` the region is entered with, whatever they are.
-/
import proofs.«170586_j85933705658978_1_alg».proof.Proof.Gen.KernelIdeal.Frame
import proofs.«170586_j85933705658978_1_alg».proof.Proof.Payload
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the grid: the row window and the output window sit at block `(t, 0)`, the other four at `(0, 0)`. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem row_lt (t : Fin cfg1.N) (p : Fin 2000) : t.val * 2000 + p.val < 100000 := by
  have hN : cfg1.N = 50 := N_1
  have ht := t.isLt
  have hp := p.isLt
  omega

/-- Row `p` of the row window's block at point `t` is row `2000 t + p` of its array. -/
theorem rows_block (c : Dev nD) (t : Fin cfg1.N) (p : Fin 2000) (k : Fin 128) :
    (iblk1 V c 0 t : Vec Ideal S2000x128 .f32) (ix2 p k) = V c main_v43 (ix2 ⟨t.val * 2000 + p.val, row_lt t p⟩ k) := by
  obtain ⟨e0, e1, -⟩ := index_facts t
  show V c main_v43 (((cfg1.win 0).blk t).view.emb (ix2 p k)) = V c main_v43 _
  refine congrArg _ (funext fun a => Fin.ext ?_)
  match a with
  | ⟨0, _⟩ => show win1_0.index t (0 : Fin 2) * 2000 + 1 * p.val = t.val * 2000 + p.val; rw [e0]; omega
  | ⟨1, _⟩ => show win1_0.index t (1 : Fin 2) * 128 + 1 * k.val = k.val; rw [e1]; omega

/-- The first weight matrix's window is its whole array at every point. -/
theorem w1_block (c : Dev nD) (t : Fin cfg1.N) : (iblk1 V c 1 t : Vec Ideal S128x512 .bf16) = V c main_v44 := by
  obtain ⟨-, -, e0, e1, -⟩ := index_facts t
  funext y
  show V c main_v44 (((cfg1.win 1).blk t).view.emb y) = V c main_v44 y
  refine congrArg _ (funext fun a => Fin.ext ?_)
  match a with
  | ⟨0, _⟩ => show win1_1.index t (0 : Fin 2) * 128 + 1 * (y 0).val = (y 0).val; rw [e0]; omega
  | ⟨1, _⟩ => show win1_1.index t (1 : Fin 2) * 512 + 1 * (y 1).val = (y 1).val; rw [e1]; omega

/-- The first bias row's window is its whole array at every point. -/
theorem b1_block (c : Dev nD) (t : Fin cfg1.N) : (iblk1 V c 2 t : Vec Ideal S1x512 .f32) = V c main_v46 := by
  obtain ⟨-, -, -, -, e0, e1, -⟩ := index_facts t
  funext y
  show V c main_v46 (((cfg1.win 2).blk t).view.emb y) = V c main_v46 y
  refine congrArg _ (funext fun a => Fin.ext ?_)
  match a with
  | ⟨0, _⟩ => show win1_2.index t (0 : Fin 2) * 1 + 1 * (y 0).val = (y 0).val; rw [e0]; omega
  | ⟨1, _⟩ => show win1_2.index t (1 : Fin 2) * 512 + 1 * (y 1).val = (y 1).val; rw [e1]; omega

/-- The second weight matrix's window is its whole array at every point. -/
theorem w2_block (c : Dev nD) (t : Fin cfg1.N) : (iblk1 V c 3 t : Vec Ideal S512x128 .bf16) = V c main_v45 := by
  obtain ⟨-, -, -, -, -, -, e0, e1, -⟩ := index_facts t
  funext y
  show V c main_v45 (((cfg1.win 3).blk t).view.emb y) = V c main_v45 y
  refine congrArg _ (funext fun a => Fin.ext ?_)
  match a with
  | ⟨0, _⟩ => show win1_3.index t (0 : Fin 2) * 512 + 1 * (y 0).val = (y 0).val; rw [e0]; omega
  | ⟨1, _⟩ => show win1_3.index t (1 : Fin 2) * 128 + 1 * (y 1).val = (y 1).val; rw [e1]; omega

/-- The second bias row's window is its whole array at every point. -/
theorem b2_block (c : Dev nD) (t : Fin cfg1.N) : (iblk1 V c 4 t : Vec Ideal S1x128 .f32) = V c main_v47 := by
  obtain ⟨-, -, -, -, -, -, -, -, e0, e1, -⟩ := index_facts t
  funext y
  show V c main_v47 (((cfg1.win 4).blk t).view.emb y) = V c main_v47 y
  refine congrArg _ (funext fun a => Fin.ext ?_)
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

/-- Entry `(p, q)` of the output window's block at point `t` is entry `(2000 t + p, q)` of its array. -/
theorem out_emb (t : Fin cfg1.N) (p : Fin 2000) (q : Fin 128) :
    (((cfg1.win 5).blk t).view.emb (ix2 p q) : S100000x128.Idx) = ix2 ⟨t.val * 2000 + p.val, row_lt t p⟩ q := by
  obtain ⟨-, -, -, -, -, -, -, -, -, -, e0, e1⟩ := index_facts t
  refine funext fun a => Fin.ext ?_
  match a with
  | ⟨0, _⟩ => show win1_5.index t (0 : Fin 2) * 2000 + 1 * p.val = t.val * 2000 + p.val; rw [e0]; omega
  | ⟨1, _⟩ => show win1_5.index t (1 : Fin 2) * 128 + 1 * q.val = q.val; rw [e1]; omega

/-- What the region computes: the perceptron of every row of the row array, with the weights and biases as found. -/
abbrev result (c : Dev nD) : S100000x128.Idx → EReal :=
  Cert.Gin.mlp2 (V c main_v43) (V c main_v44) (V c main_v46) (V c main_v45) (V c main_v47)

/-- What point `t` writes back is block `t` of `result`. -/
theorem flushed_eq (c : Dev nD) (t : Fin cfg1.N) :
    (dat1 V c).flushed 5 t = ((cfg1.win 5).blk t).view.read (Elt Ideal) (result V c) := by
  show (cfg1.win 5).cut (grid1.coords t) ((dat1 V c).after 5 t) = _
  rw [after1_5]
  unfold out1_5
  rw [View.canon_unit_zero zero_offsets]
  simp only [View.ld_unit_zero (S := S2000x128) zero_offsets, View.ld_unit_zero (S := S128x512) zero_offsets,
    View.ld_unit_zero (S := S1x512) zero_offsets, View.ld_unit_zero (S := S512x128) zero_offsets,
    View.ld_unit_zero (S := S1x128) zero_offsets]
  rw [w1_block V c t, b1_block V c t, w2_block V c t, b2_block V c t]
  funext y
  obtain ⟨p, q, rfl⟩ : ∃ (p : Fin 2000) (q : Fin 128), y = ix2 p q := ⟨y 0, y 1, eq_ix2 y⟩
  show k1_pay1 (F := Ideal) (iblk1 V c 0 t) (V c main_v44) (V c main_v46) (V c main_v45) (V c main_v47) (ix2 p q)
    = result V c (((cfg1.win 5).blk t).view.emb (ix2 p q))
  rw [out_emb t p q]
  refine (Body.pay1_apply (iblk1 V c 0 t) (V c main_v44) (V c main_v46) (V c main_v45) (V c main_v47) p q).trans ?_
  unfold result
  rw [Cert.Gin.mlp2_apply]
  simp only [rows_block V c t p]

/-- An index of the output array is in point `t`'s block iff each coordinate is in the block's range on its axis. -/
theorem mem_blk (t : Fin cfg1.N) (i : S100000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v48).slice (win1_5.rect t)).set ↔ _
  rw [View.set_slice_whole, Rect.mem_set_unit]
  exact Iff.rfl

/-- Every index of the output array is in the block of the point `row / 2000`, which writes back. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 50 := N_1
  have ht : (i 0).val / 2000 < cfg1.N := by rw [hN]; omega
  obtain ⟨-, -, -, -, -, -, -, -, -, -, e0, e1⟩ := index_facts ⟨(i 0).val / 2000, ht⟩
  refine ⟨⟨(i 0).val / 2000, ht⟩, flush1_5 _, ?_⟩
  rw [mem_blk]
  intro a
  match a with
  | ⟨0, _⟩ =>
    show win1_5.index ⟨(i 0).val / 2000, ht⟩ (0 : Fin 2) * 2000 ≤ (i 0).val
      ∧ (i 0).val < win1_5.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win1_5.index ⟨(i 0).val / 2000, ht⟩ (1 : Fin 2) * 128 ≤ (i 1).val
      ∧ (i 1).val < win1_5.index ⟨(i 0).val / 2000, ht⟩ (1 : Fin 2) * 128 + 128
    rw [e1]
    omega

/-- The output array after the run is `result` of the arrays the region was entered with. -/
theorem array_eq (c : Dev nD) : (dat1 V c).arrAt 5 cfg1.N = result V c :=
  (dat1 V c).arrAt_eq_of_cover 5 (result V c) (fun t _ => flushed_eq V c t) cover

end Cert.KernelIdeal.Region1

end
-- ==== Proof.KernelFold.lean ====
/-
  The kernel program's result buffer after the run, as two applications of one layer to the arguments.

  The contents of every buffer at the program's segment boundaries are a fold from the launch memory: the host
  operations before the first region write the aggregated features, flattened to `[100000, 128]`, the weights in
  the matrix unit's format (the identity on the extended reals) and the biases as one-row matrices; the first region
  leaves the perceptron of every row in its output array; the host operations between the regions restore the three
  axes, aggregate again over the same edge list and flatten; the second region applies the perceptron with the second
  layer's weights; the last reshape restores the three axes. The neighbourhood aggregation is carried as one function
  `aggregate` and never opened. Flatten, perceptron on rows, restore is the perceptron on nodes (`unflatten_mlp2`),
  so the result is `mlp3 (aggregate (mlp3 (aggregate x) …)) …`.
-/
import proofs.«170586_j85933705658978_1_alg».proof.Proof.Gen.KernelIdeal.Frame
import proofs.«170586_j85933705658978_1_alg».proof.Proof.Region0
import proofs.«170586_j85933705658978_1_alg».proof.Proof.Region1
import proofs.«170586_j85933705658978_1_alg».proof.Proof.Spec
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo

/-- Row `r` of the `[2, 800000]` edge list as a vector of node ids (`r = 0`: sources, `r = 1`: destinations). -/
def sources (e : (⟨S2x800000, .i32⟩ : BufTy).Contents (Elt Ideal)) : (⟨S800000, .i32⟩ : BufTy).Contents (Elt Ideal) :=
  shapeCast _ (extractStridedSlice S1x800000 ![0, 0] e slices_S2x800000_S1x800000_0_0) shapeCasts_S1x800000_S800000
def destinations (e : (⟨S2x800000, .i32⟩ : BufTy).Contents (Elt Ideal)) : (⟨S800000, .i32⟩ : BufTy).Contents (Elt Ideal) :=
  shapeCast _ (extractStridedSlice S1x800000 ![1, 0] e slices_S2x800000_S1x800000_1_0) shapeCasts_S1x800000_S800000

/-- A vector of node ids as an index column, a negative id wrapped by the node count 50000. -/
def indexColumn (v : (⟨S800000, .i32⟩ : BufTy).Contents (Elt Ideal)) : (⟨S800000x1, .i32⟩ : BufTy).Contents (Elt Ideal) :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- The neighbourhood aggregation: the gathered source rows scatter-added into zeros at the destinations, plus the array. -/
def aggregate (s d : (⟨S800000, .i32⟩ : BufTy).Contents (Elt Ideal)) (x : (⟨S2x50000x128, .f32⟩ : BufTy).Contents (Elt Ideal)) : (⟨S2x50000x128, .f32⟩ : BufTy).Contents (Elt Ideal) :=
  addf (F := Ideal) (Host.scatterAdd (F := Ideal) scatter_S2x50000x128_S800000x1_S2x800000x128_02_1_1_1
      (broadcastInDim S2x50000x128 ![] bcast_S_S2x50000x128 (constant (F := Ideal) S_ .f32 0x00000000#32)) (indexColumn d)
      (Host.gather gather_S2x50000x128_S800000x1_S2x800000x128_02_1_n_n_1_1_21128 x (indexColumn s))) x

/-- The two layers composed, as a function of the ten arguments. -/
def result (x0 : (⟨S2x50000x128, .f32⟩ : BufTy).Contents (Elt Ideal)) (x1 : (⟨S2x800000, .i32⟩ : BufTy).Contents (Elt Ideal)) (x2 : (⟨S128x512, .f32⟩ : BufTy).Contents (Elt Ideal))
    (x3 : (⟨S512, .f32⟩ : BufTy).Contents (Elt Ideal)) (x4 : (⟨S512x128, .f32⟩ : BufTy).Contents (Elt Ideal)) (x5 : (⟨S128, .f32⟩ : BufTy).Contents (Elt Ideal)) (x6 : (⟨S128x512, .f32⟩ : BufTy).Contents (Elt Ideal))
    (x7 : (⟨S512, .f32⟩ : BufTy).Contents (Elt Ideal)) (x8 : (⟨S512x128, .f32⟩ : BufTy).Contents (Elt Ideal)) (x9 : (⟨S128, .f32⟩ : BufTy).Contents (Elt Ideal)) : (⟨S2x50000x128, .f32⟩ : BufTy).Contents (Elt Ideal) :=
  Cert.Gin.mlp3 (aggregate (sources x1) (destinations x1)
    (Cert.Gin.mlp3 (aggregate (sources x1) (destinations x1) x0) x2 x3 x4 x5)) x6 x7 x8 x9

/-- One layer's dense part as the program lays it out — flatten, the perceptron on rows with the weights in the
    matrix unit's format and the biases as one-row matrices, restore the three axes — is the perceptron on nodes. -/
theorem layer_flat (h : (⟨S2x50000x128, .f32⟩ : BufTy).Contents (Elt Ideal)) (w1 : (⟨S128x512, .f32⟩ : BufTy).Contents (Elt Ideal)) (b1 : (⟨S512, .f32⟩ : BufTy).Contents (Elt Ideal))
    (w2 : (⟨S512x128, .f32⟩ : BufTy).Contents (Elt Ideal)) (b2 : (⟨S128, .f32⟩ : BufTy).Contents (Elt Ideal)) :
    shapeCast S2x50000x128
        (Cert.Gin.mlp2 (shapeCast S100000x128 h shapeCasts_S2x50000x128_S100000x128) (truncf (F := Ideal) .bf16 w1 bitsLt_bf16_f32)
          (shapeCast S1x512 b1 shapeCasts_S512_S1x512) (truncf (F := Ideal) .bf16 w2 bitsLt_bf16_f32)
          (shapeCast S1x128 b2 shapeCasts_S128_S1x128)) shapeCasts_S100000x128_S2x50000x128
      = Cert.Gin.mlp3 h w1 b1 w2 b2 :=
  Cert.Gin.unflatten_mlp2 h w1 b1 w2 b2 _ _ _ _

variable (m : (ℓ : Loc nD τ sig) → Buf (Elt Ideal) ℓ) (ρ : Dev nD → PrngReg)

/-! ## Before the first region -/

theorem src_eq (c : Dev nD) : W1 m ρ c (Proc.devRef .tc main_v1) = sources (m ((c : Thread nD τ).loc main_arg1)) := by
  show StableHlo.after hostOps0 (W0 m ρ c) (Proc.devRef .tc main_v1) = _
  dsimp only [hostOps0]
  after_results_simp <;> rfl

theorem dst_eq (c : Dev nD) : W1 m ρ c (Proc.devRef .tc main_v3) = destinations (m ((c : Thread nD τ).loc main_arg1)) := by
  show StableHlo.after hostOps0 (W0 m ρ c) (Proc.devRef .tc main_v3) = _
  dsimp only [hostOps0]
  after_results_simp <;> rfl

set_option maxHeartbeats 4000000 in
theorem rows0_eq (c : Dev nD) :
    V1 m ρ c main_v20 = shapeCast S100000x128
      (aggregate (sources (m ((c : Thread nD τ).loc main_arg1))) (destinations (m ((c : Thread nD τ).loc main_arg1))) (m ((c : Thread nD τ).loc main_arg0)))
      shapeCasts_S2x50000x128_S100000x128 := by
  show StableHlo.after hostOps0 (W0 m ρ c) (Proc.devRef .tc main_v20) = _
  dsimp only [hostOps0]
  after_results_simp <;> rfl

theorem w1_0_eq (c : Dev nD) : V1 m ρ c main_v21 = truncf (F := Ideal) .bf16 (m ((c : Thread nD τ).loc main_arg2)) bitsLt_bf16_f32 := by
  show StableHlo.after hostOps0 (W0 m ρ c) (Proc.devRef .tc main_v21) = _
  dsimp only [hostOps0]
  after_results_simp <;> rfl

theorem b1_0_eq (c : Dev nD) : V1 m ρ c main_v23 = shapeCast S1x512 (m ((c : Thread nD τ).loc main_arg3)) shapeCasts_S512_S1x512 := by
  show StableHlo.after hostOps0 (W0 m ρ c) (Proc.devRef .tc main_v23) = _
  dsimp only [hostOps0]
  after_results_simp <;> rfl

theorem w2_0_eq (c : Dev nD) : V1 m ρ c main_v22 = truncf (F := Ideal) .bf16 (m ((c : Thread nD τ).loc main_arg4)) bitsLt_bf16_f32 := by
  show StableHlo.after hostOps0 (W0 m ρ c) (Proc.devRef .tc main_v22) = _
  dsimp only [hostOps0]
  after_results_simp <;> rfl

theorem b2_0_eq (c : Dev nD) : V1 m ρ c main_v24 = shapeCast S1x128 (m ((c : Thread nD τ).loc main_arg5)) shapeCasts_S128_S1x128 := by
  show StableHlo.after hostOps0 (W0 m ρ c) (Proc.devRef .tc main_v24) = _
  dsimp only [hostOps0]
  after_results_simp <;> rfl

/-- The second layer's weights and biases pass the host operations before the first region untouched. -/
theorem arg6_W1 (c : Dev nD) : W1 m ρ c (Proc.devRef .tc main_arg6) = (m ((c : Thread nD τ).loc main_arg6)) := by
  show StableHlo.after hostOps0 (W0 m ρ c) (Proc.devRef .tc main_arg6) = _
  dsimp only [hostOps0]
  after_results_simp <;> rfl
theorem arg7_W1 (c : Dev nD) : W1 m ρ c (Proc.devRef .tc main_arg7) = (m ((c : Thread nD τ).loc main_arg7)) := by
  show StableHlo.after hostOps0 (W0 m ρ c) (Proc.devRef .tc main_arg7) = _
  dsimp only [hostOps0]
  after_results_simp <;> rfl
theorem arg8_W1 (c : Dev nD) : W1 m ρ c (Proc.devRef .tc main_arg8) = (m ((c : Thread nD τ).loc main_arg8)) := by
  show StableHlo.after hostOps0 (W0 m ρ c) (Proc.devRef .tc main_arg8) = _
  dsimp only [hostOps0]
  after_results_simp <;> rfl
theorem arg9_W1 (c : Dev nD) : W1 m ρ c (Proc.devRef .tc main_arg9) = (m ((c : Thread nD τ).loc main_arg9)) := by
  show StableHlo.after hostOps0 (W0 m ρ c) (Proc.devRef .tc main_arg9) = _
  dsimp only [hostOps0]
  after_results_simp <;> rfl

/-! ## The first region -/

/-- The first layer's output, flattened, is what the first region leaves in its output array. -/
theorem out0_eq (c : Dev nD) :
    W2 m ρ c (Proc.devRef .tc main_v25)
      = Cert.Gin.mlp2 (shapeCast S100000x128
          (aggregate (sources (m ((c : Thread nD τ).loc main_arg1))) (destinations (m ((c : Thread nD τ).loc main_arg1))) (m ((c : Thread nD τ).loc main_arg0)))
          shapeCasts_S2x50000x128_S100000x128) (truncf (F := Ideal) .bf16 (m ((c : Thread nD τ).loc main_arg2)) bitsLt_bf16_f32)
          (shapeCast S1x512 (m ((c : Thread nD τ).loc main_arg3)) shapeCasts_S512_S1x512) (truncf (F := Ideal) .bf16 (m ((c : Thread nD τ).loc main_arg4)) bitsLt_bf16_f32)
          (shapeCast S1x128 (m ((c : Thread nD τ).loc main_arg5)) shapeCasts_S128_S1x128) := by
  refine (W2_arr m ρ c 5).trans ((Region0.array_eq (V1 m ρ) c).trans ?_)
  unfold Region0.result
  rw [rows0_eq m ρ c, w1_0_eq m ρ c, b1_0_eq m ρ c, w2_0_eq m ρ c, b2_0_eq m ρ c]

/-! ## Between the regions -/

set_option maxHeartbeats 4000000 in
theorem rows1_eq (c : Dev nD) :
    V3 m ρ c main_v43 = shapeCast S100000x128
      (aggregate (W2 m ρ c (Proc.devRef .tc main_v1)) (W2 m ρ c (Proc.devRef .tc main_v3))
        (shapeCast S2x50000x128 (W2 m ρ c (Proc.devRef .tc main_v25)) shapeCasts_S100000x128_S2x50000x128))
      shapeCasts_S2x50000x128_S100000x128 := by
  show StableHlo.after hostOps1 (W2 m ρ c) (Proc.devRef .tc main_v43) = _
  dsimp only [hostOps1]
  after_results_simp <;> rfl

theorem w1_1_eq (c : Dev nD) : V3 m ρ c main_v44 = truncf (F := Ideal) .bf16 (W2 m ρ c (Proc.devRef .tc main_arg6)) bitsLt_bf16_f32 := by
  show StableHlo.after hostOps1 (W2 m ρ c) (Proc.devRef .tc main_v44) = _
  dsimp only [hostOps1]
  after_results_simp <;> rfl

theorem b1_1_eq (c : Dev nD) : V3 m ρ c main_v46 = shapeCast S1x512 (W2 m ρ c (Proc.devRef .tc main_arg7)) shapeCasts_S512_S1x512 := by
  show StableHlo.after hostOps1 (W2 m ρ c) (Proc.devRef .tc main_v46) = _
  dsimp only [hostOps1]
  after_results_simp <;> rfl

theorem w2_1_eq (c : Dev nD) : V3 m ρ c main_v45 = truncf (F := Ideal) .bf16 (W2 m ρ c (Proc.devRef .tc main_arg8)) bitsLt_bf16_f32 := by
  show StableHlo.after hostOps1 (W2 m ρ c) (Proc.devRef .tc main_v45) = _
  dsimp only [hostOps1]
  after_results_simp <;> rfl

theorem b2_1_eq (c : Dev nD) : V3 m ρ c main_v47 = shapeCast S1x128 (W2 m ρ c (Proc.devRef .tc main_arg9)) shapeCasts_S128_S1x128 := by
  show StableHlo.after hostOps1 (W2 m ρ c) (Proc.devRef .tc main_v47) = _
  dsimp only [hostOps1]
  after_results_simp <;> rfl

/-- The first region writes only its output array: the edge vectors and the second layer's parameters are as before it. -/
theorem src_W2 (c : Dev nD) : W2 m ρ c (Proc.devRef .tc main_v1) = sources (m ((c : Thread nD τ).loc main_arg1)) :=
  (W2_of_ne m ρ c main_v1 (by decide)).trans (src_eq m ρ c)
theorem dst_W2 (c : Dev nD) : W2 m ρ c (Proc.devRef .tc main_v3) = destinations (m ((c : Thread nD τ).loc main_arg1)) :=
  (W2_of_ne m ρ c main_v3 (by decide)).trans (dst_eq m ρ c)
theorem arg6_W2 (c : Dev nD) : W2 m ρ c (Proc.devRef .tc main_arg6) = (m ((c : Thread nD τ).loc main_arg6)) :=
  (W2_of_ne m ρ c main_arg6 (by decide)).trans (arg6_W1 m ρ c)
theorem arg7_W2 (c : Dev nD) : W2 m ρ c (Proc.devRef .tc main_arg7) = (m ((c : Thread nD τ).loc main_arg7)) :=
  (W2_of_ne m ρ c main_arg7 (by decide)).trans (arg7_W1 m ρ c)
theorem arg8_W2 (c : Dev nD) : W2 m ρ c (Proc.devRef .tc main_arg8) = (m ((c : Thread nD τ).loc main_arg8)) :=
  (W2_of_ne m ρ c main_arg8 (by decide)).trans (arg8_W1 m ρ c)
theorem arg9_W2 (c : Dev nD) : W2 m ρ c (Proc.devRef .tc main_arg9) = (m ((c : Thread nD τ).loc main_arg9)) :=
  (W2_of_ne m ρ c main_arg9 (by decide)).trans (arg9_W1 m ρ c)

/-! ## The second region and the last reshape -/

/-- The result buffer holds the second region's output array with its three axes restored. -/
theorem last_eq (c : Dev nD) :
    W5 m ρ c (Proc.devRef .tc main_v49)
      = shapeCast S2x50000x128 (W4 m ρ c (Proc.devRef .tc main_v48)) shapeCasts_S100000x128_S2x50000x128 := by
  show StableHlo.after hostOps2 (W4 m ρ c) (Proc.devRef .tc main_v49) = _
  dsimp only [hostOps2]
  after_results_simp <;> rfl

/-- The result buffer after the run is `result` of the arguments. -/
theorem result_eq (c : Dev nD) :
    W5 m ρ c (Proc.devRef .tc main_v49)
      = result (m ((c : Thread nD τ).loc main_arg0)) (m ((c : Thread nD τ).loc main_arg1)) (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) (m ((c : Thread nD τ).loc main_arg8)) (m ((c : Thread nD τ).loc main_arg9)) := by
  rw [last_eq m ρ c]
  rw [show W4 m ρ c (Proc.devRef .tc main_v48) = _ from
    (W4_arr m ρ c 5).trans (Region1.array_eq (V3 m ρ) c)]
  unfold Region1.result
  rw [rows1_eq m ρ c, w1_1_eq m ρ c, b1_1_eq m ρ c, w2_1_eq m ρ c, b2_1_eq m ρ c, src_W2 m ρ c, dst_W2 m ρ c,
    arg6_W2 m ρ c, arg7_W2 m ρ c, arg8_W2 m ρ c, arg9_W2 m ρ c, out0_eq m ρ c]
  rw [layer_flat, layer_flat]
  rfl

end Cert.KernelIdeal.Fold

end
-- ==== Proof.Reference.lean ====
/-
  The reference program's result as two applications of one layer.

  The reference's run ends at one composed term of the arguments. Read one operation at a time, a layer is: the
  neighbourhood aggregation `aggregate` (every edge's source row gathered, the rows scatter-added at the edge's
  destination, negative node ids wrapped by the node count, and the node's own row added), then the perceptron on
  every node — `einsum` with the first weights (a sum over the 128 features), the first bias broadcast over batch
  and node, the rectifier, `einsum` with the second weights (a sum over the 512 hidden units), the second bias. The
  aggregation is never opened: it is carried as one function of the edge list and the feature array. The perceptron
  is read at an index and is `Cert.Gin.mlp3`.
-/
import proofs.«170586_j85933705658978_1_alg».proof.Proof.Gen.ReferenceIdeal.Read
import proofs.«170586_j85933705658978_1_alg».proof.Proof.Spec

set_option maxRecDepth 16384

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx

/-- Row `r` of the `[2, 800000]` edge list as a vector of node ids (`r = 0`: sources, `r = 1`: destinations). -/
def sources (e : (⟨S2x800000, .i32⟩ : BufTy).Contents (Elt Ideal)) : (⟨S800000, .i32⟩ : BufTy).Contents (Elt Ideal) :=
  shapeCast _ (extractStridedSlice S1x800000 ![0, 0] e slices_S2x800000_S1x800000_0_0) shapeCasts_S1x800000_S800000
def destinations (e : (⟨S2x800000, .i32⟩ : BufTy).Contents (Elt Ideal)) : (⟨S800000, .i32⟩ : BufTy).Contents (Elt Ideal) :=
  shapeCast _ (extractStridedSlice S1x800000 ![1, 0] e slices_S2x800000_S1x800000_1_0) shapeCasts_S1x800000_S800000

/-- A vector of node ids as an index column, a negative id wrapped by the node count 50000. -/
def indexColumn (v : (⟨S800000, .i32⟩ : BufTy).Contents (Elt Ideal)) : (⟨S800000x1, .i32⟩ : BufTy).Contents (Elt Ideal) :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- The neighbourhood aggregation: the gathered source rows scatter-added into zeros at the destinations, plus the array. -/
def aggregate (s d : (⟨S800000, .i32⟩ : BufTy).Contents (Elt Ideal)) (x : (⟨S2x50000x128, .f32⟩ : BufTy).Contents (Elt Ideal)) : (⟨S2x50000x128, .f32⟩ : BufTy).Contents (Elt Ideal) :=
  addf (F := Ideal) (Host.scatterAdd (F := Ideal) scatter_S2x50000x128_S800000x1_S2x800000x128_02_1_1_1
      (broadcastInDim S2x50000x128 ![] bcast_S_S2x50000x128 (constant (F := Ideal) S_ .f32 0x00000000#32)) (indexColumn d)
      (Host.gather gather_S2x50000x128_S800000x1_S2x800000x128_02_1_n_n_1_1_21128 x (indexColumn s))) x

/-- The first layer's aggregated features are `aggregate` of the input features. -/
theorem v19_eq (x0 : (⟨S2x50000x128, .f32⟩ : BufTy).Contents (Elt Ideal)) (x1 : (⟨S2x800000, .i32⟩ : BufTy).Contents (Elt Ideal)) :
    val_main_v19 (F := Ideal) x0 x1 = aggregate (sources x1) (destinations x1) x0 := by
  unfold val_main_v19 val_main_v18 val_main_v17 val_main_v16 val_main_v15 val_main_v14 val_main_v13 val_main_v12
    val_main_v11 val_main_v10 val_main_v9 val_main_v8 val_main_v7 val_main_v6 val_main_v5 val_main_v4 val_main_v3
    val_main_v2 val_main_v1 val_main_v0 val_main_c val_main_c_0 val_main_c_1 val_main_c_2 val_main_cst
    aggregate sources destinations indexColumn
  rfl

/-- The first layer's output: the perceptron of the aggregated features. -/
theorem layer1 (x0 : (⟨S2x50000x128, .f32⟩ : BufTy).Contents (Elt Ideal)) (x1 : (⟨S2x800000, .i32⟩ : BufTy).Contents (Elt Ideal)) (x2 : (⟨S128x512, .f32⟩ : BufTy).Contents (Elt Ideal))
    (x3 : (⟨S512, .f32⟩ : BufTy).Contents (Elt Ideal)) (x4 : (⟨S512x128, .f32⟩ : BufTy).Contents (Elt Ideal)) (x5 : (⟨S128, .f32⟩ : BufTy).Contents (Elt Ideal)) :
    val_main_v28 (F := Ideal) x0 x1 x2 x3 x4 x5 = Cert.Gin.mlp3 (val_main_v19 (F := Ideal) x0 x1) x2 x3 x4 x5 := by
  funext i
  obtain ⟨b, n, q, rfl⟩ : ∃ (b : Fin 2) (n : Fin 50000) (q : Fin 128), i = ix3 b n q := ⟨i 0, i 1, i 2, eq_ix3 i⟩
  rw [Cert.Gin.mlp3_apply]
  unfold Cert.Gin.mlpRow
  rw [val_main_v28_apply, val_main_v25_apply, val_main_v27_apply, val_main_v26_apply, Ideal.addf_def]
  refine congrArg₂ (· + ·) (Finset.sum_congr rfl fun j _ => ?_) (congrArg x5 ?_)
  · rw [val_main_v24_apply, val_main_v23_apply, val_main_v20_apply, val_main_v22_apply, val_main_v21_apply,
      val_main_call0_v0_apply, val_main_call0_cst_apply, Ideal.maximumf_def, Ideal.addf_def, Ideal.ofBits_def]
    refine congrArg₂ (· * ·) (congrArg₂ max (congrArg₂ (· + ·) (Finset.sum_congr rfl fun k _ => ?_) (congrArg x3 ?_)) rfl)
      (congrArg x4 ?_)
    · exact congrArg₂ (· * ·)
        (congrArg (val_main_v19 (F := Ideal) x0 x1)
          (funext fun a => Fin.ext (by match a with | ⟨0, _⟩ => rfl | ⟨1, _⟩ => rfl | ⟨2, _⟩ => rfl)))
        (congrArg x2 (funext fun a => Fin.ext (by match a with | ⟨0, _⟩ => rfl | ⟨1, _⟩ => rfl)))
    · exact funext fun a => Fin.ext (by match a with | ⟨0, _⟩ => rfl)
    · exact funext fun a => Fin.ext (by match a with | ⟨0, _⟩ => rfl | ⟨1, _⟩ => rfl)
  · exact funext fun a => Fin.ext (by match a with | ⟨0, _⟩ => rfl)

/-- The second layer's aggregated features are `aggregate` of the first layer's output. -/
theorem v44_eq (x0 : (⟨S2x50000x128, .f32⟩ : BufTy).Contents (Elt Ideal)) (x1 : (⟨S2x800000, .i32⟩ : BufTy).Contents (Elt Ideal)) (x2 : (⟨S128x512, .f32⟩ : BufTy).Contents (Elt Ideal))
    (x3 : (⟨S512, .f32⟩ : BufTy).Contents (Elt Ideal)) (x4 : (⟨S512x128, .f32⟩ : BufTy).Contents (Elt Ideal)) (x5 : (⟨S128, .f32⟩ : BufTy).Contents (Elt Ideal)) :
    val_main_v44 (F := Ideal) x0 x1 x2 x3 x4 x5
      = aggregate (sources x1) (destinations x1) (val_main_v28 (F := Ideal) x0 x1 x2 x3 x4 x5) := by
  unfold val_main_v44 val_main_v43 val_main_v36
  generalize val_main_v28 (F := Ideal) x0 x1 x2 x3 x4 x5 = y
  unfold val_main_v42 val_main_v41 val_main_v40 val_main_v39 val_main_v38 val_main_v37
    val_main_v35 val_main_v34 val_main_v33 val_main_v32 val_main_v31 val_main_v30 val_main_v29 val_main_v3
    val_main_v2 val_main_v1 val_main_v0 val_main_c_4 val_main_c_5 val_main_c_6 val_main_c_7 val_main_cst_3
    aggregate sources destinations indexColumn
  rfl

/-- The second layer's output: the perceptron of the aggregated features. -/
theorem layer2 (x0 : (⟨S2x50000x128, .f32⟩ : BufTy).Contents (Elt Ideal)) (x1 : (⟨S2x800000, .i32⟩ : BufTy).Contents (Elt Ideal)) (x2 : (⟨S128x512, .f32⟩ : BufTy).Contents (Elt Ideal))
    (x3 : (⟨S512, .f32⟩ : BufTy).Contents (Elt Ideal)) (x4 : (⟨S512x128, .f32⟩ : BufTy).Contents (Elt Ideal)) (x5 : (⟨S128, .f32⟩ : BufTy).Contents (Elt Ideal)) (x6 : (⟨S128x512, .f32⟩ : BufTy).Contents (Elt Ideal))
    (x7 : (⟨S512, .f32⟩ : BufTy).Contents (Elt Ideal)) (x8 : (⟨S512x128, .f32⟩ : BufTy).Contents (Elt Ideal)) (x9 : (⟨S128, .f32⟩ : BufTy).Contents (Elt Ideal)) :
    val_main_v53 (F := Ideal) x0 x1 x2 x3 x4 x5 x6 x7 x8 x9
      = Cert.Gin.mlp3 (val_main_v44 (F := Ideal) x0 x1 x2 x3 x4 x5) x6 x7 x8 x9 := by
  funext i
  obtain ⟨b, n, q, rfl⟩ : ∃ (b : Fin 2) (n : Fin 50000) (q : Fin 128), i = ix3 b n q := ⟨i 0, i 1, i 2, eq_ix3 i⟩
  rw [Cert.Gin.mlp3_apply]
  unfold Cert.Gin.mlpRow
  rw [val_main_v53_apply, val_main_v50_apply, val_main_v52_apply, val_main_v51_apply, Ideal.addf_def]
  refine congrArg₂ (· + ·) (Finset.sum_congr rfl fun j _ => ?_) (congrArg x9 ?_)
  · rw [val_main_v49_apply, val_main_v48_apply, val_main_v45_apply, val_main_v47_apply, val_main_v46_apply,
      val_main_call1_v0_apply, val_main_call1_cst_apply, Ideal.maximumf_def, Ideal.addf_def, Ideal.ofBits_def]
    refine congrArg₂ (· * ·) (congrArg₂ max (congrArg₂ (· + ·) (Finset.sum_congr rfl fun k _ => ?_) (congrArg x7 ?_)) rfl)
      (congrArg x8 ?_)
    · exact congrArg₂ (· * ·)
        (congrArg (val_main_v44 (F := Ideal) x0 x1 x2 x3 x4 x5)
          (funext fun a => Fin.ext (by match a with | ⟨0, _⟩ => rfl | ⟨1, _⟩ => rfl | ⟨2, _⟩ => rfl)))
        (congrArg x6 (funext fun a => Fin.ext (by match a with | ⟨0, _⟩ => rfl | ⟨1, _⟩ => rfl)))
    · exact funext fun a => Fin.ext (by match a with | ⟨0, _⟩ => rfl)
    · exact funext fun a => Fin.ext (by match a with | ⟨0, _⟩ => rfl | ⟨1, _⟩ => rfl)
  · exact funext fun a => Fin.ext (by match a with | ⟨0, _⟩ => rfl)

/-- The two layers composed, as a function of the ten arguments. -/
def result (x0 : (⟨S2x50000x128, .f32⟩ : BufTy).Contents (Elt Ideal)) (x1 : (⟨S2x800000, .i32⟩ : BufTy).Contents (Elt Ideal)) (x2 : (⟨S128x512, .f32⟩ : BufTy).Contents (Elt Ideal))
    (x3 : (⟨S512, .f32⟩ : BufTy).Contents (Elt Ideal)) (x4 : (⟨S512x128, .f32⟩ : BufTy).Contents (Elt Ideal)) (x5 : (⟨S128, .f32⟩ : BufTy).Contents (Elt Ideal)) (x6 : (⟨S128x512, .f32⟩ : BufTy).Contents (Elt Ideal))
    (x7 : (⟨S512, .f32⟩ : BufTy).Contents (Elt Ideal)) (x8 : (⟨S512x128, .f32⟩ : BufTy).Contents (Elt Ideal)) (x9 : (⟨S128, .f32⟩ : BufTy).Contents (Elt Ideal)) : (⟨S2x50000x128, .f32⟩ : BufTy).Contents (Elt Ideal) :=
  Cert.Gin.mlp3 (aggregate (sources x1) (destinations x1)
    (Cert.Gin.mlp3 (aggregate (sources x1) (destinations x1) x0) x2 x3 x4 x5)) x6 x7 x8 x9

/-- The reference's composed term is `result` of the arguments. -/
theorem result_eq (x0 : (⟨S2x50000x128, .f32⟩ : BufTy).Contents (Elt Ideal)) (x1 : (⟨S2x800000, .i32⟩ : BufTy).Contents (Elt Ideal)) (x2 : (⟨S128x512, .f32⟩ : BufTy).Contents (Elt Ideal))
    (x3 : (⟨S512, .f32⟩ : BufTy).Contents (Elt Ideal)) (x4 : (⟨S512x128, .f32⟩ : BufTy).Contents (Elt Ideal)) (x5 : (⟨S128, .f32⟩ : BufTy).Contents (Elt Ideal)) (x6 : (⟨S128x512, .f32⟩ : BufTy).Contents (Elt Ideal))
    (x7 : (⟨S512, .f32⟩ : BufTy).Contents (Elt Ideal)) (x8 : (⟨S512x128, .f32⟩ : BufTy).Contents (Elt Ideal)) (x9 : (⟨S128, .f32⟩ : BufTy).Contents (Elt Ideal)) :
    val_main_v53 (F := Ideal) x0 x1 x2 x3 x4 x5 x6 x7 x8 x9 = result x0 x1 x2 x3 x4 x5 x6 x7 x8 x9 := by
  rw [layer2, v44_eq, layer1, v19_eq]
  unfold result
  rfl

end Cert.ReferenceIdeal.RefValue

end
-- ==== Proof.lean ====
/-
  Two stacked graph-isomorphism layers: the kernel program against its jnp reference, on the extended reals.

  A layer aggregates every node's neighbourhood over the edge list (gather the source rows, scatter-add them at the
  destinations, add the node's own row) and applies a two-layer perceptron to every node:
  `max (h · W1 + b1) 0 · W2 + b2`. The reference computes the perceptron with two `einsum`s over the
  `[2, 50000, 128]` array. The kernel program flattens the array to `[100000, 128]`, hands the weights to the matrix
  unit in its own float format and the biases as one-row matrices, and computes the perceptron in a pallas_call over
  50 blocks of 2000 rows, each product accumulated into zero; then it restores the three axes. On the extended reals a
  change of float format is the identity and both products are the same sums, so both programs compute
  `mlp3 (aggregate (mlp3 (aggregate x) W1₀ b1₀ W2₀ b2₀)) W1₁ b1₁ W2₁ b2₁` with one and the same aggregation, which is
  never opened; no law that needs finite inputs is used.

  The three frames: the kernel programs' are the generated frame certificates, the reference's is its generated run
  with the result dropped. The idealization rewrote nothing, so `preserves` is trivial.
-/
import proofs.«170586_j85933705658978_1_alg».proof.Defs
import proofs.«170586_j85933705658978_1_alg».proof.Proof.Gen.Kernel
import proofs.«170586_j85933705658978_1_alg».proof.Proof.Gen.Kernel.Skeleton
import proofs.«170586_j85933705658978_1_alg».proof.Proof.Gen.Kernel.Launch
import proofs.«170586_j85933705658978_1_alg».proof.Proof.Gen.Kernel.Points
import proofs.«170586_j85933705658978_1_alg».proof.Proof.Gen.Kernel.Frame
import proofs.«170586_j85933705658978_1_alg».proof.Proof.Gen.KernelIdeal
import proofs.«170586_j85933705658978_1_alg».proof.Proof.Gen.KernelIdeal.Skeleton
import proofs.«170586_j85933705658978_1_alg».proof.Proof.Gen.KernelIdeal.Launch
import proofs.«170586_j85933705658978_1_alg».proof.Proof.Gen.KernelIdeal.Points
import proofs.«170586_j85933705658978_1_alg».proof.Proof.Gen.KernelIdeal.Frame
import proofs.«170586_j85933705658978_1_alg».proof.Proof.Gen.ReferenceIdeal
import proofs.«170586_j85933705658978_1_alg».proof.Proof.Gen.ReferenceIdeal.Run
import proofs.«170586_j85933705658978_1_alg».proof.Proof.Gen.ReferenceIdeal.Read
import proofs.«170586_j85933705658978_1_alg».proof.Proof.Gen.Pre_finite_inputs
import proofs.«170586_j85933705658978_1_alg».proof.Proof.KernelRun
import proofs.«170586_j85933705658978_1_alg».proof.Proof.KernelFold
import proofs.«170586_j85933705658978_1_alg».proof.Proof.Reference
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The two programs' layer compositions are one function: the same aggregation term, the same perceptron. -/
theorem results_agree (x0 : (⟨Cert.KernelIdeal.S2x50000x128, .f32⟩ : BufTy).Contents (Elt Ideal)) (x1 : (⟨Cert.KernelIdeal.S2x800000, .i32⟩ : BufTy).Contents (Elt Ideal)) (x2 : (⟨Cert.KernelIdeal.S128x512, .f32⟩ : BufTy).Contents (Elt Ideal))
    (x3 : (⟨Cert.KernelIdeal.S512, .f32⟩ : BufTy).Contents (Elt Ideal)) (x4 : (⟨Cert.KernelIdeal.S512x128, .f32⟩ : BufTy).Contents (Elt Ideal)) (x5 : (⟨Cert.KernelIdeal.S128, .f32⟩ : BufTy).Contents (Elt Ideal)) (x6 : (⟨Cert.KernelIdeal.S128x512, .f32⟩ : BufTy).Contents (Elt Ideal))
    (x7 : (⟨Cert.KernelIdeal.S512, .f32⟩ : BufTy).Contents (Elt Ideal)) (x8 : (⟨Cert.KernelIdeal.S512x128, .f32⟩ : BufTy).Contents (Elt Ideal)) (x9 : (⟨Cert.KernelIdeal.S128, .f32⟩ : BufTy).Contents (Elt Ideal)) :
    Cert.ReferenceIdeal.RefValue.result x0 x1 x2 x3 x4 x5 x6 x7 x8 x9 = Cert.KernelIdeal.Fold.result x0 x1 x2 x3 x4 x5 x6 x7 x8 x9 := by
  unfold Cert.ReferenceIdeal.RefValue.result Cert.KernelIdeal.Fold.result Cert.ReferenceIdeal.RefValue.aggregate
    Cert.KernelIdeal.Fold.aggregate Cert.ReferenceIdeal.RefValue.indexColumn Cert.KernelIdeal.Fold.indexColumn
    Cert.ReferenceIdeal.RefValue.sources Cert.KernelIdeal.Fold.sources Cert.ReferenceIdeal.RefValue.destinations
    Cert.KernelIdeal.Fold.destinations
  rfl

/-- Both programs end with `mlp3 (aggregate (mlp3 (aggregate x) …)) …` of arguments that agree. -/
theorem algebraic : Cert.algebraic_KernelIdeal_ReferenceIdeal := by
  intro m ρ m' ρ' _ hagree
  refine ⟨fun c => Cert.KernelIdeal.Fold.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Fold.result_eq m ρ c), (h c).2⟩)
      (Cert.KernelIdeal.Gen.run_result m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9⟩ := hagree c
    rw [Cert.ReferenceIdeal.Read.val_main_v53_eq, Cert.ReferenceIdeal.RefValue.result_eq, h0, h1, h2, h3, h4, h5, h6, h7, h8, h9]
    exact results_agree _ _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
